-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16x1 : Shape := ⟨2, ![16, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x1 : S_.BroadcastsInDim S16x1 (![] : Fin 0 → Fin S16x1.rank)
  reducesTo_S16x1_S_d0_1 : S16x1.ReducesTo [0, 1] S_

variable [Facts]

def fn_part1 {F : FTy → Type} [FloatOps F] (main_arg4 : FVec F S4096x16 .f32) (main_arg5 : FVec F S16x1 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S16x1 .f32 := Host.absf main_arg5
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  main_v28

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) (main_arg5 : FVec F S16x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16x1 : Shape := ⟨2, ![16, 1]⟩
abbrev S8192x4096 : Shape := ⟨2, ![8192, 4096]⟩
abbrev S1x4096 : Shape := ⟨2, ![1, 4096]⟩
abbrev S2048x256 : Shape := ⟨2, ![2048, 256]⟩
abbrev S1024x256 : Shape := ⟨2, ![1024, 256]⟩
abbrev S16x256 : Shape := ⟨2, ![16, 256]⟩
abbrev S1024x16 : Shape := ⟨2, ![1024, 16]⟩
abbrev S1x1024 : Shape := ⟨2, ![1, 1024]⟩
abbrev S2048x1024 : Shape := ⟨2, ![2048, 1024]⟩
abbrev S2048x16 : Shape := ⟨2, ![2048, 16]⟩

abbrev nBuf : Space → Nat
  | .hbm => 12
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16x1, .f32⟩
  | .hbm, ⟨6, _⟩ => ⟨S8192x4096, .f32⟩
  | .hbm, ⟨7, _⟩ => ⟨S16x4096, .f32⟩
  | .hbm, ⟨8, _⟩ => ⟨S16x4096, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S16x256, .f32⟩
  | .local _ .vmem, ⟨5, _⟩ => ⟨S16x256, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S2048x1024, .f32⟩
  | .local _ .vmem, ⟨11, _⟩ => ⟨S2048x1024, .f32⟩
  | .local _ .vmem, ⟨12, _⟩ => ⟨S2048x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bcast_S16x1_S16x4096_0_1 : S16x1.BroadcastsInDim S16x4096 (![0, 1] : Fin 2 → Fin S16x4096.rank)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S2048x1024_S2048x1024 : S2048x1024.ShapeCasts S2048x1024
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x256_S1024x256_S2048x1024_1_1_0_0_n_n_wf : DotDims.WF S2048x256 S1024x256 S2048x1024 [1] [1] [0] [0] [] []
  dot_S2048x256_S16x256_S2048x16_1_1_0_0_n_n_wf : DotDims.WF S2048x256 S16x256 S2048x16 [1] [1] [0] [0] [] []
  dot_S2048x16_S1024x16_S2048x1024_1_1_0_0_n_n_wf : DotDims.WF S2048x16 S1024x16 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S8192x4096.size a
  hwx0_5 : ∀ i : grid0.Coords, EltTy.bits .f32 = 32 ∨ (Rect.block (s := S8192x4096) S2048x1024.size (cc0_transform_5 i) (hinb0_5 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x256_S16x256_S2048x16_1_1_0_0_n_n : DotDims S2048x256 S16x256 S2048x16 where
  lhsContracting := [1]
  rhsContracting := [1]
  lhsNonContracting := [0]
  rhsNonContracting := [0]
  lhsBatch := []
  rhsBatch := []
  wf := dot_S2048x256_S16x256_S2048x16_1_1_0_0_n_n_wf
def dot_S2048x16_S1024x16_S2048x1024_1_1_0_0_n_n : DotDims S2048x16 S1024x16 S2048x1024 where
  lhsContracting := [1]
  rhsContracting := [1]
  lhsNonContracting := [0]
  rhsNonContracting := [0]
  lhsBatch := []
  rhsBatch := []
  wf := dot_S2048x16_S1024x16_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16x1 : Shape := ⟨2, ![16, 1]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16x1, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S16x4096, .f32⟩
  | .hbm, ⟨11, _⟩ => ⟨S16x4096, .f32⟩
  | .hbm, ⟨12, _⟩ => ⟨S4x2048x16, .f32⟩
  | .hbm, ⟨13, _⟩ => ⟨S4x2048x4096, .f32⟩
  | .hbm, ⟨14, _⟩ => ⟨S_, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S16x1_S16x4096_0_1 : S16x1.BroadcastsInDim S16x4096 (![0, 1] : Fin 2 → Fin S16x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What one call of the kernel body leaves behind, case by case.

  The body keeps two running values: the output block and a narrow scratch block. At the first
  step of a contraction (case A) both are set to zero and the step's two partial products are added
  on; at a middle step (case B) the partial products are added onto what the step before left; at the
  last step (case C) the same happens and then the output block is finished from the scratch block.
  Each lemma reads the stores the run found back as one value: the body's arithmetic applied to the
  input blocks and to the carried values. The loads and stores go through the whole buffers, so a
  load reads the buffer's contents and the last store leaves its payload.
-/
import proofs.«135286_j20873541058571_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step, output block: zero, then the main partial product added. -/
theorem out_first (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S16x256 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : cond0_0 i) (hc1 : ¬cond0_1 i) (x0 : Vec F S2048x256 .f32) (x1 : Vec F S1024x256 .f32) (x2 : Vec F S16x256 .f32) (x3 : Vec F S1024x16 .f32) (x4 : Vec F S1x1024 .f32) :
    out0_A_5 c i arg3 harg3 arg4 harg4 arg5 harg5 arg6 harg6 arg7 harg7 arg8 harg8 arg9 harg9 hc0 hc1 x0 x1 x2 x3 x4 = k0_pay4 x0 x1 (k0_pay1 (F := F)) := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  try sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread, harg8.read_unread, harg9.read_unread, View.ld_unit_zero (S := S2048x256) hz, View.ld_unit_zero (S := S1024x256) hz, View.ld_unit_zero (S := S16x256) hz, View.ld_unit_zero (S := S1024x16) hz, View.ld_unit_zero (S := S1x1024) hz, View.ld_unit_zero (S := S2048x1024) hz, View.ld_unit_zero (S := S2048x16) hz]

/-- First step, scratch block: zero, then the low-rank partial product added. -/
theorem scr_first (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S16x256 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : cond0_0 i) (hc1 : ¬cond0_1 i) (x0 : Vec F S2048x256 .f32) (x1 : Vec F S1024x256 .f32) (x2 : Vec F S16x256 .f32) (x3 : Vec F S1024x16 .f32) (x4 : Vec F S1x1024 .f32) :
    sout0_A_0 c i arg3 harg3 arg4 harg4 arg5 harg5 arg6 harg6 arg7 harg7 arg8 harg8 arg9 harg9 hc0 hc1 x0 x1 x2 x3 x4 = k0_pay5 x0 x2 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  try sl_unfold_words
  rw [View.canon_cons_unit_zero (S := S2048x16) hz, View.readCov_unit_zero (S := S2048x16) _ hz]
  simp only [View.readAt_eq_ld, harg3.read_unread, harg4.read_unread, harg5.read_unread, harg6.read_unread, harg7.read_unread, harg8.read_unread, harg9.read_unread, View.ld_unit_zero (S := S2048x256) hz, View.ld_unit_zero (S := S1024x256) hz, View.ld_unit_zero (S := S16x256) hz, View.ld_unit_zero (S := S1024x16) hz, View.ld_unit_zero (S := S1x1024) hz, View.ld_unit_zero (S := S2048x1024) hz, View.ld_unit_zero (S := S2048x16) hz]

/-- Middle step, output block: the main partial product added onto the carried value. -/
theorem out_mid (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S16x256 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : ¬cond0_0 i) (hc1 : ¬cond0_1 i) (x0 : Vec F S2048x256 .f32) (x1 : Vec F S1024x256 .f32) (x2 : Vec F S16x256 .f32) (x3 : Vec F S1024x16 .f32) (x4 : Vec F S1x1024 .f32) (xo5 : Vec F S2048x1024 .f32) (xs0 : Vec F S2048x16 .f32) :
    out0_B_5 c i arg3 harg3 arg4 harg4 arg5 harg5 arg6 harg6 arg7 harg7 arg8 harg8 arg9 harg9 hc0 hc1 x0 x1 x2 x3 x4 xo5 xs0 = k0_pay4 x0 x1 xo5 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  try sl_unfold_words
  rw [View.canon_unit_zero (S := S2048x1024) hz]
  simp only [View.readAt_eq_ld, harg3.read_unread, harg4.read_unread, harg5.read_unread, harg6.read_unread, harg7.read_unread, harg8.read_unread, harg9.read_unread, View.ld_unit_zero (S := S2048x256) hz, View.ld_unit_zero (S := S1024x256) hz, View.ld_unit_zero (S := S16x256) hz, View.ld_unit_zero (S := S1024x16) hz, View.ld_unit_zero (S := S1x1024) hz, View.ld_unit_zero (S := S2048x1024) hz, View.ld_unit_zero (S := S2048x16) hz]

/-- Middle step, scratch block: the low-rank partial product added onto the carried value. -/
theorem scr_mid (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S16x256 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : ¬cond0_0 i) (hc1 : ¬cond0_1 i) (x0 : Vec F S2048x256 .f32) (x1 : Vec F S1024x256 .f32) (x2 : Vec F S16x256 .f32) (x3 : Vec F S1024x16 .f32) (x4 : Vec F S1x1024 .f32) (xo5 : Vec F S2048x1024 .f32) (xs0 : Vec F S2048x16 .f32) :
    sout0_B_0 c i arg3 harg3 arg4 harg4 arg5 harg5 arg6 harg6 arg7 harg7 arg8 harg8 arg9 harg9 hc0 hc1 x0 x1 x2 x3 x4 xo5 xs0 = k0_pay5 x0 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xo5 xs0)]
  unfold kernelRun0_B
  dsimp only
  try sl_unfold_words
  rw [View.canon_unit_zero (S := S2048x16) hz]
  simp only [View.readAt_eq_ld, harg3.read_unread, harg4.read_unread, harg5.read_unread, harg6.read_unread, harg7.read_unread, harg8.read_unread, harg9.read_unread, View.ld_unit_zero (S := S2048x256) hz, View.ld_unit_zero (S := S1024x256) hz, View.ld_unit_zero (S := S16x256) hz, View.ld_unit_zero (S := S1024x16) hz, View.ld_unit_zero (S := S1x1024) hz, View.ld_unit_zero (S := S2048x1024) hz, View.ld_unit_zero (S := S2048x16) hz]

/-- Last step, output block: both running values updated, then the output finished from them. -/
theorem out_last (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S16x256 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : ¬cond0_0 i) (hc1 : cond0_1 i) (x0 : Vec F S2048x256 .f32) (x1 : Vec F S1024x256 .f32) (x2 : Vec F S16x256 .f32) (x3 : Vec F S1024x16 .f32) (x4 : Vec F S1x1024 .f32) (xo5 : Vec F S2048x1024 .f32) (xs0 : Vec F S2048x16 .f32) :
    out0_C_5 c i arg3 harg3 arg4 harg4 arg5 harg5 arg6 harg6 arg7 harg7 arg8 harg8 arg9 harg9 hc0 hc1 x0 x1 x2 x3 x4 xo5 xs0 = k0_pay6 (k0_pay5 x0 x2 xs0) x3 x4 (k0_pay4 x0 x1 xo5) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  try sl_unfold_words
  rw [View.canon_cons_unit_zero (S := S2048x1024) hz, View.readCov_unit_zero (S := S2048x16) _ hz,
    View.readCov_unit_zero (S := S2048x1024) _ hz]
  simp only [View.readAt_eq_ld, harg3.read_unread, harg4.read_unread, harg5.read_unread, harg6.read_unread, harg7.read_unread, harg8.read_unread, harg9.read_unread, View.ld_unit_zero (S := S2048x256) hz, View.ld_unit_zero (S := S1024x256) hz, View.ld_unit_zero (S := S16x256) hz, View.ld_unit_zero (S := S1024x16) hz, View.ld_unit_zero (S := S1x1024) hz, View.ld_unit_zero (S := S2048x1024) hz, View.ld_unit_zero (S := S2048x16) hz]

/-- Last step, scratch block: updated as at a middle step. -/
theorem scr_last (c : Dev nD) (i : grid0.Coords) (arg3 : Memref sig .tc .vmem S2048x256 .f32) (harg3 : arg3.IsWhole) (arg4 : Memref sig .tc .vmem S1024x256 .f32) (harg4 : arg4.IsWhole) (arg5 : Memref sig .tc .vmem S16x256 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x16 .f32) (harg9 : arg9.IsWhole) (hc0 : ¬cond0_0 i) (hc1 : cond0_1 i) (x0 : Vec F S2048x256 .f32) (x1 : Vec F S1024x256 .f32) (x2 : Vec F S16x256 .f32) (x3 : Vec F S1024x16 .f32) (x4 : Vec F S1x1024 .f32) (xo5 : Vec F S2048x1024 .f32) (xs0 : Vec F S2048x16 .f32) :
    sout0_C_0 c i arg3 harg3 arg4 harg4 arg5 harg5 arg6 harg6 arg7 harg7 arg8 harg8 arg9 harg9 hc0 hc1 x0 x1 x2 x3 x4 xo5 xs0 = k0_pay5 x0 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xo5 xs0)]
  unfold kernelRun0_C
  dsimp only
  try sl_unfold_words
  rw [View.canon_unit_zero (S := S2048x16) hz]
  simp only [View.readAt_eq_ld, harg3.read_unread, harg4.read_unread, harg5.read_unread, harg6.read_unread, harg7.read_unread, harg8.read_unread, harg9.read_unread, View.ld_unit_zero (S := S2048x256) hz, View.ld_unit_zero (S := S1024x256) hz, View.ld_unit_zero (S := S16x256) hz, View.ld_unit_zero (S := S1024x16) hz, View.ld_unit_zero (S := S1x1024) hz, View.ld_unit_zero (S := S2048x1024) hz, View.ld_unit_zero (S := S2048x16) hz]

end Cert.KernelIdeal.Pieces

end
-- ==== Proof.LibTransposedRhsDot.lean ====
/-
  The product of an M×K matrix with the transpose of an N×K matrix, read at one entry.

  Both operands are contracted along their last axis, so entry (p, q) of the result is the sum over
  k of left (p, k) times right (q, k). Stated for the dimension record `DotDims.transposedRhs M K N`
  at the exact instance, for the accelerator's product into the zero accumulator and for the host's
  product; general in the three extents. A printed record with contracting axes [1] and [1], free
  axes [0] and [0] and no batch axes is this record (the two differ only in a proof field).
-/
import Idealize.ShloMosaic.Lib.ValueIdx
import Idealize.ShloMosaic.PureOps.Ideal.Laws

noncomputable section

open scoped BigOperators

namespace Cert.LibTransposedRhsDot

open Idealize.ShloMosaic Idealize.ShloMosaic.ValueIdx

variable {M K N : ℕ}

/-- The left operand's index for result entry (p, q) and contraction position k is (p, k). -/
theorem lhsIdx_eq (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a; apply Fin.ext
  match a with
  | ⟨0, _⟩ =>
    show ((DotDims.transposedRhs M K N).lhsIdx (ix2 p q) _ 0).val = p.val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl _ _).trans hk

/-- The right operand's index for result entry (p, q) and contraction position k is (q, k). -/
theorem rhsIdx_eq (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a; apply Fin.ext
  match a with
  | ⟨0, _⟩ =>
    show ((DotDims.transposedRhs M K N).rhsIdx (ix2 p q) _ 0).val = q.val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl _ _).trans hk

/-- The accelerator's product into the zero accumulator: entry (p, q) is the sum over k of
    left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant (F := Ideal) ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (contrEquiv1 (DotDims.transposedRhs M K N) K rfl rfl).symm]
  refine Finset.sum_congr rfl fun k _ => ?_
  rw [lhsIdx_eq, rhsIdx_eq]

/-- The host's product of the same shape: the same sum. -/
theorem dotGeneral_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) := by
  show FloatOps.dotGeneral _ prec _ l r (ix2 p q) = _
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhsDot

end
-- ==== Proof.Payload.lean ====
/-
  The body's arithmetic, one entry at a time, at the exact instance.

  The three products contract the last axis of both operands; the changes of float format are the
  identity there. So, at entry (p, q): the main update adds the sum over 256 positions of x·w onto the
  carried value; the low-rank update does the same against the scaled factor; the finishing step adds
  onto the carried output the sixteen-term product of the scratch row with a row of B, times the scale
  literal, plus the bias of column q; and the two resets are zero.
-/
import proofs.«135286_j20873541058571_2_alg».proof.Proof.Gen.KernelIdeal.Skeleton
import proofs.«135286_j20873541058571_2_alg».proof.Proof.LibTransposedRhsDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The printed dimension records are the transposed-right-operand product's. -/
theorem dot_main_eq : dot_S2048x256_S1024x256_S2048x1024_1_1_0_0_n_n = DotDims.transposedRhs 2048 256 1024 := rfl
theorem dot_low_eq : dot_S2048x256_S16x256_S2048x16_1_1_0_0_n_n = DotDims.transposedRhs 2048 256 16 := rfl
theorem dot_fin_eq : dot_S2048x16_S1024x16_S2048x1024_1_1_0_0_n_n = DotDims.transposedRhs 2048 16 1024 := rfl

/-- The output block's reset value is zero. -/
theorem reset_out_apply (p : Fin 2048) (q : Fin 1024) : k0_pay1 (F := Ideal) (ix2 p q) = 0 := by
  unfold k0_pay1
  exact Ideal.ofBits_zero_f32

/-- The scratch block's reset value is zero. -/
theorem reset_scr_apply (p : Fin 2048) (r : Fin 16) : k0_pay2 (F := Ideal) (ix2 p r) = 0 := by
  unfold k0_pay2
  simp only [shapeCast_self]
  exact Ideal.ofBits_zero_f32

/-- The main update: the carried value plus 256 terms of x·w. -/
theorem main_step_apply (x0 : Vec Ideal S2048x256 .f32) (x1 : Vec Ideal S1024x256 .f32) (acc : Vec Ideal S2048x1024 .f32)
    (p : Fin 2048) (q : Fin 1024) :
    k0_pay4 (F := Ideal) x0 x1 acc (ix2 p q) = acc (ix2 p q) + ∑ j : Fin 256, x0 (ix2 p j) * x1 (ix2 q j) := by
  unfold k0_pay4 k0_pay3
  simp only [shapeCast_self]
  refine congrArg (acc (ix2 p q) + ·) ?_
  exact Cert.LibTransposedRhsDot.matmul_zero_apply (M := 2048) (K := 256) (N := 1024) none _ _ p q

/-- The low-rank update: the carried value plus 256 terms of x·a'. -/
theorem low_step_apply (x0 : Vec Ideal S2048x256 .f32) (x2 : Vec Ideal S16x256 .f32) (h : Vec Ideal S2048x16 .f32)
    (p : Fin 2048) (r : Fin 16) :
    k0_pay5 (F := Ideal) x0 x2 h (ix2 p r) = h (ix2 p r) + ∑ j : Fin 256, x0 (ix2 p j) * x2 (ix2 r j) := by
  unfold k0_pay5 k0_pay3
  simp only [shapeCast_self]
  refine congrArg (h (ix2 p r) + ·) ?_
  exact Cert.LibTransposedRhsDot.matmul_zero_apply (M := 2048) (K := 256) (N := 16) none _ _ p r

/-- The finishing step: the carried output plus (scratch row · row of B, scaled) plus the bias. -/
theorem finish_apply (h : Vec Ideal S2048x16 .f32) (x3 : Vec Ideal S1024x16 .f32) (x4 : Vec Ideal S1x1024 .f32)
    (acc : Vec Ideal S2048x1024 .f32) (p : Fin 2048) (q : Fin 1024) :
    k0_pay6 (F := Ideal) h x3 x4 acc (ix2 p q)
      = acc (ix2 p q) + ((∑ r : Fin 16, h (ix2 p r) * x3 (ix2 q r)) * Ideal.ofBits .f32 0x3F800000#32
          + x4 (ix2 (0 : Fin 1) q)) := by
  unfold k0_pay6
  simp only [shapeCast_self]
  refine congrArg (acc (ix2 p q) + ·) ?_
  refine congrArg₂ (· + ·) (congrArg (· * Ideal.ofBits .f32 0x3F800000#32) ?_) ?_
  · exact Cert.LibTransposedRhsDot.matmul_zero_apply (M := 2048) (K := 16) (N := 1024) (some .fp32) h x3 p q
  · exact broadcastTo_1b_ab_apply (a := 2048) (b := 1024) x4 _ p q

end Cert.KernelIdeal.Payload

end
-- ==== Proof.Blocks.lean ====
/-
  Where a block sits in its array.

  Grid point t stands for the triple (t / 64, t / 16 % 4, t % 16): a row block of 2048 rows, a column
  block of 1024 columns, and a run of 256 contraction positions. Each input block read at an entry is
  its array read at the entry shifted by the block's offsets. Three of the arrays were written by the
  host lines before the region: the flattened `x`, the scaled low-rank factor, and the bias as one row.
-/
import proofs.«135286_j20873541058571_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps, decided once over the 256 grid points. -/
theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val % 16
    ∧ win0_3.index t (0 : Fin 2) = t.val / 16 % 4 ∧ win0_3.index t (1 : Fin 2) = 0
    ∧ win0_4.index t (0 : Fin 2) = 0 ∧ win0_4.index t (1 : Fin 2) = t.val / 16 % 4
    ∧ win0_5.index t (0 : Fin 2) = t.val / 64 ∧ win0_5.index t (1 : Fin 2) = t.val / 16 % 4 :=
  (by decide +kernel : ∀ t : Fin grid0.N, _)

/-- The block of `x`: rows from `2048·(t/64)`, positions from `256·(t%16)`. -/
theorem blk_x (c : Dev nD) (t : Fin cfg0.N) (p : Fin 2048) (j : Fin 256) (R : Fin 8192) (k : Fin 4096)
    (hR : R.val = t.val / 64 * 2048 + p.val) (hk : k.val = t.val % 16 * 256 + j.val) :
    (iblk m c 0 t : Vec F S2048x256 .f32) (ix2 p j) = (V m c main_v0 : S8192x4096.Idx → Elt F .f32) (ix2 R k) := by
  obtain ⟨e0, e1, -⟩ := idx_facts t
  unfold iblk
  rw [View.read_apply]
  show V m c main_v0 _ = V m c main_v0 _
  congr 1
  funext a; apply Fin.ext
  match a with
  | ⟨0, _⟩ => show win0_0.index t (0 : Fin 2) * 2048 + 1 * p.val = R.val; rw [e0, hR]; omega
  | ⟨1, _⟩ => show win0_0.index t (1 : Fin 2) * 256 + 1 * j.val = k.val; rw [e1, hk]; omega

/-- The block of `W`: rows from `1024·(t/16%4)`, positions from `256·(t%16)`. -/
theorem blk_w (c : Dev nD) (t : Fin cfg0.N) (q : Fin 1024) (j : Fin 256) (C : Fin 4096) (k : Fin 4096)
    (hC : C.val = t.val / 16 % 4 * 1024 + q.val) (hk : k.val = t.val % 16 * 256 + j.val) :
    (iblk m c 1 t : Vec F S1024x256 .f32) (ix2 q j) = (V m c main_arg1 : S4096x4096.Idx → Elt F .f32) (ix2 C k) := by
  obtain ⟨-, -, e0, e1, -⟩ := idx_facts t
  unfold iblk
  rw [View.read_apply]
  show V m c main_arg1 _ = V m c main_arg1 _
  congr 1
  funext a; apply Fin.ext
  match a with
  | ⟨0, _⟩ => show win0_1.index t (0 : Fin 2) * 1024 + 1 * q.val = C.val; rw [e0, hC]; omega
  | ⟨1, _⟩ => show win0_1.index t (1 : Fin 2) * 256 + 1 * j.val = k.val; rw [e1, hk]; omega

/-- The block of the scaled factor: all sixteen rows, positions from `256·(t%16)`. -/
theorem blk_a (c : Dev nD) (t : Fin cfg0.N) (r : Fin 16) (j : Fin 256) (k : Fin 4096)
    (hk : k.val = t.val % 16 * 256 + j.val) :
    (iblk m c 2 t : Vec F S16x256 .f32) (ix2 r j) = (V m c main_v2 : S16x4096.Idx → Elt F .f32) (ix2 r k) := by
  obtain ⟨-, -, -, -, e0, e1, -⟩ := idx_facts t
  unfold iblk
  rw [View.read_apply]
  show V m c main_v2 _ = V m c main_v2 _
  congr 1
  funext a; apply Fin.ext
  match a with
  | ⟨0, _⟩ => show win0_2.index t (0 : Fin 2) * 16 + 1 * r.val = r.val; rw [e0]; omega
  | ⟨1, _⟩ => show win0_2.index t (1 : Fin 2) * 256 + 1 * j.val = k.val; rw [e1, hk]; omega

/-- The block of `B`: rows from `1024·(t/16%4)`, all sixteen columns. -/
theorem blk_b (c : Dev nD) (t : Fin cfg0.N) (q : Fin 1024) (r : Fin 16) (C : Fin 4096)
    (hC : C.val = t.val / 16 % 4 * 1024 + q.val) :
    (iblk m c 3 t : Vec F S1024x16 .f32) (ix2 q r) = (V m c main_arg4 : S4096x16.Idx → Elt F .f32) (ix2 C r) := by
  obtain ⟨-, -, -, -, -, -, e0, e1, -⟩ := idx_facts t
  unfold iblk
  rw [View.read_apply]
  show V m c main_arg4 _ = V m c main_arg4 _
  congr 1
  funext a; apply Fin.ext
  match a with
  | ⟨0, _⟩ => show win0_3.index t (0 : Fin 2) * 1024 + 1 * q.val = C.val; rw [e0, hC]; omega
  | ⟨1, _⟩ => show win0_3.index t (1 : Fin 2) * 16 + 1 * r.val = r.val; rw [e1]; omega

/-- The block of the bias row: columns from `1024·(t/16%4)`. -/
theorem blk_bias (c : Dev nD) (t : Fin cfg0.N) (q : Fin 1024) (C : Fin 4096)
    (hC : C.val = t.val / 16 % 4 * 1024 + q.val) :
    (iblk m c 4 t : Vec F S1x1024 .f32) (ix2 (0 : Fin 1) q) = (V m c main_v3 : S1x4096.Idx → Elt F .f32) (ix2 (0 : Fin 1) C) := by
  obtain ⟨-, -, -, -, -, -, -, -, e0, e1, -⟩ := idx_facts t
  unfold iblk
  rw [View.read_apply]
  show V m c main_v3 _ = V m c main_v3 _
  congr 1
  funext a; apply Fin.ext
  match a with
  | ⟨0, _⟩ => show win0_4.index t (0 : Fin 2) * 1 + 1 * (0 : Fin 1).val = (0 : Fin 1).val; rw [e0]; rfl
  | ⟨1, _⟩ => show win0_4.index t (1 : Fin 2) * 1024 + 1 * q.val = C.val; rw [e1, hC]; omega

/-- The region finds `x` flattened to 8192 rows; -/
theorem V_x (c : Dev nD) : (V m c main_v0 : S8192x4096.Idx → Elt F .f32)
    = shapeCast S8192x4096 (m ((c : Thread nD τ).loc main_arg0)) shapeCasts_S4x2048x4096_S8192x4096 := by
  show StableHlo.after hostOps0 (fun b => m (c, b)) (Proc.devRef .tc main_v0) = _
  after_results
  rfl

/-- the low-rank factor with each row scaled; -/
theorem V_a (c : Dev nD) : (V m c main_v2 : S16x4096.Idx → Elt F .f32)
    = mulf (m ((c : Thread nD τ).loc main_arg3)) (broadcastInDim S16x4096 ![0, 1] bcast_S16x1_S16x4096_0_1 (m ((c : Thread nD τ).loc main_arg5))) := by
  show StableHlo.after hostOps0 (fun b => m (c, b)) (Proc.devRef .tc main_v2) = _
  after_results

/-- and the bias as a single row. -/
theorem V_bias (c : Dev nD) : (V m c main_v3 : S1x4096.Idx → Elt F .f32)
    = shapeCast S1x4096 (m ((c : Thread nD τ).loc main_arg2)) shapeCasts_S4096_S1x4096 := by
  show StableHlo.after hostOps0 (fun b => m (c, b)) (Proc.devRef .tc main_v3) = _
  after_results
  rfl

end Cert.KernelIdeal.Blocks

end
-- ==== Proof.Spec.lean ====
/-
  The arithmetic the two programs share, on the extended reals.

  A contraction over 4096 positions can be taken as sixteen runs of 256 consecutive positions,
  each run added up and the runs then added in order: regrouping a finite sum in a commutative
  monoid, so nothing about finiteness of the terms is used. The result element is the main
  product plus the low-rank correction (scaled by a literal) plus the bias; the two programs
  add these three in a different order, which is commutativity and associativity of addition.
-/
import Idealize.ShloMosaic.Lib.ValueIdx

noncomputable section

open scoped BigOperators

namespace Cert.Spec

/-- A family indexed below 4096, continued by zero to every natural number. -/
def ext0 (f : Fin 4096 → EReal) (n : ℕ) : EReal := if h : n < 4096 then f ⟨n, h⟩ else 0

/-- Run `kk`: the terms at positions `256·kk … 256·kk + 255`, added. -/
def runSum (f : Fin 4096 → EReal) (kk : ℕ) : EReal := ∑ j : Fin 256, ext0 f (kk * 256 + j.val)

/-- The first `n` runs, added in order. -/
def partialSum (f : Fin 4096 → EReal) (n : ℕ) : EReal := ∑ kk ∈ Finset.range n, runSum f kk

/-- One more run is added on the right. -/
theorem partialSum_succ (f : Fin 4096 → EReal) (n : ℕ) :
    partialSum f (n + 1) = partialSum f n + runSum f n := Finset.sum_range_succ _ _

/-- The first run alone. -/
theorem partialSum_one (f : Fin 4096 → EReal) : partialSum f 1 = runSum f 0 := by
  unfold partialSum; rw [Finset.sum_range_one]

/-- Inside the range a run reads the family itself. -/
theorem runSum_eq (f : Fin 4096 → EReal) (kk : ℕ) (hk : kk < 16) :
    runSum f kk = ∑ j : Fin 256, f ⟨kk * 256 + j.val, by have := j.isLt; omega⟩ := by
  unfold runSum
  refine Finset.sum_congr rfl fun j _ => ?_
  unfold ext0
  rw [dif_pos]

/-- `a` runs of length `b` are the first `a·b` terms. -/
theorem sum_runs (g : ℕ → EReal) (a b : ℕ) :
    ∑ kk ∈ Finset.range a, ∑ j ∈ Finset.range b, g (kk * b + j) = ∑ n ∈ Finset.range (a * b), g n := by
  induction a with
  | zero => simp
  | succ a ih => rw [Finset.sum_range_succ, ih, Nat.succ_mul, Finset.sum_range_add]

/-- All sixteen runs are the whole contraction. -/
theorem partialSum_full (f : Fin 4096 → EReal) : partialSum f 16 = ∑ k : Fin 4096, f k := by
  unfold partialSum runSum
  have h1 : ∀ kk : ℕ, ∑ j : Fin 256, ext0 f (kk * 256 + j.val) = ∑ j ∈ Finset.range 256, ext0 f (kk * 256 + j) :=
    fun kk => Fin.sum_univ_eq_sum_range (fun j => ext0 f (kk * 256 + j)) 256
  simp only [h1]
  rw [sum_runs (ext0 f) 16 256, ← Fin.sum_univ_eq_sum_range (ext0 f) (16 * 256)]
  show ∑ k : Fin 4096, ext0 f k.val = _
  refine Finset.sum_congr rfl fun k _ => ?_
  unfold ext0
  rw [dif_pos k.isLt]

/-- The main product `P`, the scaled correction `L` and the bias `b`, added in the two orders the programs use. -/
theorem regroup (P L b : EReal) : P + (L + b) = (P + b) + L := by
  rw [add_comm L b, add_assoc]

open Idealize.ShloMosaic Idealize.ShloMosaic.ValueIdx

/-- Entry `(b, s, o)` of the result: row `(b, s)` of `x` against row `o` of `W`, plus the bias at `o`, plus the
    low-rank correction — row `(b, s)` of `x` against each of the sixteen rows of the scaled factor `A'`, those
    sixteen numbers against row `o` of `B` — times the scale literal `one`. -/
def entry (x : (⟨3, ![4, 2048, 4096]⟩ : Shape).Idx → EReal) (W : (⟨2, ![4096, 4096]⟩ : Shape).Idx → EReal)
    (bias : (⟨1, ![4096]⟩ : Shape).Idx → EReal) (A' : (⟨2, ![16, 4096]⟩ : Shape).Idx → EReal)
    (B : (⟨2, ![4096, 16]⟩ : Shape).Idx → EReal) (one : EReal) (b : Fin 4) (s : Fin 2048) (o : Fin 4096) : EReal :=
  ((∑ k : Fin 4096, x (ix3 b s k) * W (ix2 o k)) + bias (ix1 o))
    + (∑ r : Fin 16, (∑ k : Fin 4096, x (ix3 b s k) * A' (ix2 r k)) * B (ix2 o r)) * one

/-- The whole result array. -/
def result (x : (⟨3, ![4, 2048, 4096]⟩ : Shape).Idx → EReal) (W : (⟨2, ![4096, 4096]⟩ : Shape).Idx → EReal)
    (bias : (⟨1, ![4096]⟩ : Shape).Idx → EReal) (A' : (⟨2, ![16, 4096]⟩ : Shape).Idx → EReal)
    (B : (⟨2, ![4096, 16]⟩ : Shape).Idx → EReal) (one : EReal) : (⟨3, ![4, 2048, 4096]⟩ : Shape).Idx → EReal :=
  fun i => entry x W bias A' B one (i 0) (i 1) (i 2)

end Cert.Spec

end
-- ==== Proof.Accum.lean ====
/-
  What the two running blocks hold after each grid point.

  Along a contraction (sixteen consecutive points sharing a row block and a column block) the output
  block at entry (p, q) holds the first t%16 + 1 runs of the main product of row R of `x` with row C of
  `W`, and the scratch block at (p, r) the same runs of row R of `x` with row r of the scaled factor:
  the first point starts from zero, every later point adds one run onto what the point before left.
  This is an induction on the point. At the last point of a contraction the output block is finished:
  all sixteen runs of the main product, plus the sixteen-term product of the completed scratch row with
  row C of `B` times the scale literal, plus the bias of column C. Sixteen runs are the whole
  contraction over 4096 positions.
-/
import proofs.«135286_j20873541058571_2_alg».proof.Proof.Pieces
import proofs.«135286_j20873541058571_2_alg».proof.Proof.Payload
import proofs.«135286_j20873541058571_2_alg».proof.Proof.Blocks
import proofs.«135286_j20873541058571_2_alg».proof.Proof.Spec

set_option maxRecDepth 16384

noncomputable section

open scoped BigOperators
open Idealize.ShloMosaic Idealize.ShloMosaic.TcCoe Idealize.SL.Sem

namespace Cert.KernelIdeal.Accum

open Cert.KernelIdeal Cert.KernelIdeal.Gen Idealize.ShloMosaic.ValueIdx Cert.Spec

variable (m : (ℓ : Loc nD τ sig) → Buf (Elt Ideal) ℓ)

/-- The arrays as the region finds them, as functions into the extended reals. -/
abbrev aX (c : Dev nD) : S8192x4096.Idx → EReal := V m c main_v0
abbrev aW (c : Dev nD) : S4096x4096.Idx → EReal := V m c main_arg1
abbrev aA (c : Dev nD) : S16x4096.Idx → EReal := V m c main_v2
abbrev aB (c : Dev nD) : S4096x16.Idx → EReal := V m c main_arg4
abbrev aBias (c : Dev nD) : S1x4096.Idx → EReal := V m c main_v3

/-- Term k of the main product for row R of the flattened `x` and row C of `W`. -/
def mainTerm (c : Dev nD) (R : Fin 8192) (C : Fin 4096) (k : Fin 4096) : EReal :=
  aX m c (ix2 R k) * aW m c (ix2 C k)

/-- Term k of the low-rank product for row R of the flattened `x` and row r of the scaled factor. -/
def lowTerm (c : Dev nD) (R : Fin 8192) (r : Fin 16) (k : Fin 4096) : EReal :=
  aX m c (ix2 R k) * aA m c (ix2 r k)

/-- The finished entry for row R and column C: the whole main product, plus the whole low-rank product
    against row C of `B` times the scale literal, plus the bias of column C. -/
def entry2d (c : Dev nD) (R : Fin 8192) (C : Fin 4096) : EReal :=
  (∑ k : Fin 4096, mainTerm m c R C k)
    + ((∑ r : Fin 16, (∑ k : Fin 4096, lowTerm m c R r k) * aB m c (ix2 C r)) * Ideal.ofBits .f32 0x3F800000#32
        + aBias m c (ix2 (0 : Fin 1) C))

/-- 256 numbers that are the terms of run kk of a contraction add up to that run. -/
theorem run_of (u : Fin 256 → EReal) (f : Fin 4096 → EReal) (kk : ℕ) (hk : kk < 16)
    (h : ∀ j : Fin 256, u j = f ⟨kk * 256 + j.val, by have := j.isLt; omega⟩) : ∑ j : Fin 256, u j = runSum f kk := by
  rw [runSum_eq f kk hk]
  exact Finset.sum_congr rfl fun j _ => h j

/-- The products a point forms for the main product are the terms of run t%16. -/
theorem main_term_at (c : Dev nD) (t : Fin cfg0.N) (p : Fin 2048) (q : Fin 1024) (R : Fin 8192) (C : Fin 4096)
    (hR : R.val = t.val / 64 * 2048 + p.val) (hC : C.val = t.val / 16 % 4 * 1024 + q.val)
    (x0 : Vec Ideal S2048x256 .f32) (x1 : Vec Ideal S1024x256 .f32) (e0 : x0 = iblk m c 0 t) (e1 : x1 = iblk m c 1 t)
    (j : Fin 256) :
    x0 (ix2 p j) * x1 (ix2 q j) = mainTerm m c R C ⟨t.val % 16 * 256 + j.val, by have := j.isLt; omega⟩ := by
  subst e0 e1
  rw [Blocks.blk_x m c t p j R ⟨t.val % 16 * 256 + j.val, by have := j.isLt; omega⟩ hR rfl,
    Blocks.blk_w m c t q j C ⟨t.val % 16 * 256 + j.val, by have := j.isLt; omega⟩ hC rfl]
  rfl

/-- The products a point forms for the low-rank product are the terms of run t%16. -/
theorem low_term_at (c : Dev nD) (t : Fin cfg0.N) (p : Fin 2048) (r : Fin 16) (R : Fin 8192)
    (hR : R.val = t.val / 64 * 2048 + p.val)
    (x0 : Vec Ideal S2048x256 .f32) (x2 : Vec Ideal S16x256 .f32) (e0 : x0 = iblk m c 0 t) (e2 : x2 = iblk m c 2 t)
    (j : Fin 256) :
    x0 (ix2 p j) * x2 (ix2 r j) = lowTerm m c R r ⟨t.val % 16 * 256 + j.val, by have := j.isLt; omega⟩ := by
  subst e0 e2
  rw [Blocks.blk_x m c t p j R ⟨t.val % 16 * 256 + j.val, by have := j.isLt; omega⟩ hR rfl,
    Blocks.blk_a m c t r j ⟨t.val % 16 * 256 + j.val, by have := j.isLt; omega⟩ rfl]
  rfl

set_option maxHeartbeats 4000000 in
/-- The two running blocks after a first point, as the body's arithmetic; -/
theorem at_first (c : Dev nD) (t : Fin cfg0.N) (h0 : t.val % 16 = 0) (h1 : ¬t.val % 16 = 15) :
    outsAt0 m c t.val t.isLt = (k0_pay4 (iblk m c 0 t) (iblk m c 1 t) (k0_pay1 (F := Ideal)),
      k0_pay5 (iblk m c 0 t) (iblk m c 2 t) (k0_pay2 (F := Ideal))) := by
  rw [outsAt0_A m c t h0 h1]
  exact congrArg₂ Prod.mk (Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (Pieces.scr_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t))

set_option maxHeartbeats 4000000 in
/-- after a middle point; -/
theorem at_mid (c : Dev nD) (t : Fin cfg0.N) (h0 : ¬t.val % 16 = 0) (h1 : ¬t.val % 16 = 15) :
    outsAt0 m c t.val t.isLt = (k0_pay4 (iblk m c 0 t) (iblk m c 1 t) (outsAt0 m c (t.val - 1) (Nat.lt_of_le_of_lt (Nat.sub_le _ _) t.isLt)).1,
      k0_pay5 (iblk m c 0 t) (iblk m c 2 t) (outsAt0 m c (t.val - 1) (Nat.lt_of_le_of_lt (Nat.sub_le _ _) t.isLt)).2) := by
  rw [outsAt0_B m c t h0 h1]
  exact congrArg₂ Prod.mk (Pieces.out_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) (Pieces.scr_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2)

set_option maxHeartbeats 4000000 in
/-- and after a last point. -/
theorem at_last (c : Dev nD) (t : Fin cfg0.N) (h0 : ¬t.val % 16 = 0) (h1 : t.val % 16 = 15) :
    outsAt0 m c t.val t.isLt = (k0_pay6 (k0_pay5 (iblk m c 0 t) (iblk m c 2 t) (outsAt0 m c (t.val - 1) (Nat.lt_of_le_of_lt (Nat.sub_le _ _) t.isLt)).2) (iblk m c 3 t) (iblk m c 4 t)
        (k0_pay4 (iblk m c 0 t) (iblk m c 1 t) (outsAt0 m c (t.val - 1) (Nat.lt_of_le_of_lt (Nat.sub_le _ _) t.isLt)).1),
      k0_pay5 (iblk m c 0 t) (iblk m c 2 t) (outsAt0 m c (t.val - 1) (Nat.lt_of_le_of_lt (Nat.sub_le _ _) t.isLt)).2) := by
  rw [outsAt0_C m c t h0 h1]
  exact congrArg₂ Prod.mk (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) (Pieces.scr_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2)

/-- THE INVARIANT at point n: away from a contraction's last point the output block holds the first
    n%16 + 1 runs of the main product; the scratch block always holds the first n%16 + 1 runs of the
    low-rank product. -/
def Inv (c : Dev nD) (n : ℕ) (h : n < cfg0.N) : Prop :=
  (¬n % 16 = 15 → ∀ (p : Fin 2048) (q : Fin 1024) (R : Fin 8192) (C : Fin 4096),
      R.val = n / 64 * 2048 + p.val → C.val = n / 16 % 4 * 1024 + q.val →
      (outsAt0 m c n h).1 (ix2 p q) = partialSum (mainTerm m c R C) (n % 16 + 1))
  ∧ (∀ (p : Fin 2048) (r : Fin 16) (R : Fin 8192), R.val = n / 64 * 2048 + p.val →
      (outsAt0 m c n h).2 (ix2 p r) = partialSum (lowTerm m c R r) (n % 16 + 1))

/-- A first point starts both sums with their first run. -/
theorem inv_first (c : Dev nD) (t : Fin cfg0.N) (h0 : t.val % 16 = 0) : Inv m c t.val t.isLt := by
  have h1 : ¬t.val % 16 = 15 := by omega
  refine ⟨fun _ p q R C hR hC => ?_, fun p r R hR => ?_⟩
  · rw [at_first m c t h0 h1]
    show k0_pay4 (iblk m c 0 t) (iblk m c 1 t) (k0_pay1 (F := Ideal)) (ix2 p q) = _
    refine (Payload.main_step_apply (iblk m c 0 t) (iblk m c 1 t) _ p q).trans ?_
    rw [Payload.reset_out_apply, zero_add,
      run_of _ (mainTerm m c R C) (t.val % 16) (Nat.mod_lt _ (by decide)) (main_term_at m c t p q R C hR hC (iblk m c 0 t) (iblk m c 1 t) rfl rfl), h0]
    exact (partialSum_one _).symm
  · rw [at_first m c t h0 h1]
    show k0_pay5 (iblk m c 0 t) (iblk m c 2 t) (k0_pay2 (F := Ideal)) (ix2 p r) = _
    refine (Payload.low_step_apply (iblk m c 0 t) (iblk m c 2 t) _ p r).trans ?_
    rw [Payload.reset_scr_apply, zero_add,
      run_of _ (lowTerm m c R r) (t.val % 16) (Nat.mod_lt _ (by decide)) (low_term_at m c t p r R hR (iblk m c 0 t) (iblk m c 2 t) rfl rfl), h0]
    exact (partialSum_one _).symm

/-- The scratch block's step, shared by middle and last points: one more run. -/
theorem scr_step (c : Dev nD) (t : Fin cfg0.N) (h0 : ¬t.val % 16 = 0)
    (ih : Inv m c (t.val - 1) (Nat.lt_of_le_of_lt (Nat.sub_le _ _) t.isLt)) (p : Fin 2048) (r : Fin 16) (R : Fin 8192)
    (hR : R.val = t.val / 64 * 2048 + p.val) :
    k0_pay5 (iblk m c 0 t) (iblk m c 2 t) (outsAt0 m c (t.val - 1) (Nat.lt_of_le_of_lt (Nat.sub_le _ _) t.isLt)).2 (ix2 p r) = partialSum (lowTerm m c R r) (t.val % 16 + 1) := by
  refine (Payload.low_step_apply (iblk m c 0 t) (iblk m c 2 t) _ p r).trans ?_
  have e : (t.val - 1) % 16 + 1 = t.val % 16 := by omega
  rw [ih.2 p r R (by omega),
    run_of _ (lowTerm m c R r) (t.val % 16) (Nat.mod_lt _ (by decide)) (low_term_at m c t p r R hR (iblk m c 0 t) (iblk m c 2 t) rfl rfl), e, ← partialSum_succ]

/-- The output block's step at a point that is not a first one: one more run. -/
theorem out_step (c : Dev nD) (t : Fin cfg0.N) (h0 : ¬t.val % 16 = 0)
    (ih : Inv m c (t.val - 1) (Nat.lt_of_le_of_lt (Nat.sub_le _ _) t.isLt)) (p : Fin 2048) (q : Fin 1024) (R : Fin 8192) (C : Fin 4096)
    (hR : R.val = t.val / 64 * 2048 + p.val) (hC : C.val = t.val / 16 % 4 * 1024 + q.val) :
    k0_pay4 (iblk m c 0 t) (iblk m c 1 t) (outsAt0 m c (t.val - 1) (Nat.lt_of_le_of_lt (Nat.sub_le _ _) t.isLt)).1 (ix2 p q) = partialSum (mainTerm m c R C) (t.val % 16 + 1) := by
  refine (Payload.main_step_apply (iblk m c 0 t) (iblk m c 1 t) _ p q).trans ?_
  have e : (t.val - 1) % 16 + 1 = t.val % 16 := by omega
  rw [ih.1 (by omega) p q R C (by omega) (by omega),
    run_of _ (mainTerm m c R C) (t.val % 16) (Nat.mod_lt _ (by decide)) (main_term_at m c t p q R C hR hC (iblk m c 0 t) (iblk m c 1 t) rfl rfl), e, ← partialSum_succ]

/-- A middle point adds one run to each. -/
theorem inv_mid (c : Dev nD) (t : Fin cfg0.N) (h0 : ¬t.val % 16 = 0) (h1 : ¬t.val % 16 = 15)
    (ih : Inv m c (t.val - 1) (Nat.lt_of_le_of_lt (Nat.sub_le _ _) t.isLt)) : Inv m c t.val t.isLt := by
  refine ⟨fun _ p q R C hR hC => ?_, fun p r R hR => ?_⟩
  · rw [at_mid m c t h0 h1]
    exact out_step m c t h0 ih p q R C hR hC
  · rw [at_mid m c t h0 h1]
    exact scr_step m c t h0 ih p r R hR

/-- A last point adds one run to the scratch block (the output block is finished there: `last_out`). -/
theorem inv_last (c : Dev nD) (t : Fin cfg0.N) (h0 : ¬t.val % 16 = 0) (h1 : t.val % 16 = 15)
    (ih : Inv m c (t.val - 1) (Nat.lt_of_le_of_lt (Nat.sub_le _ _) t.isLt)) : Inv m c t.val t.isLt := by
  refine ⟨fun h => absurd h1 h, fun p r R hR => ?_⟩
  rw [at_last m c t h0 h1]
  exact scr_step m c t h0 ih p r R hR

/-- The invariant holds at every point: induction on the point. -/
theorem inv (c : Dev nD) : ∀ (n : ℕ) (h : n < cfg0.N), Inv m c n h
  | 0, h => inv_first m c ⟨0, h⟩ rfl
  | n + 1, h => by
    by_cases h0 : (n + 1) % 16 = 0
    · exact inv_first m c ⟨n + 1, h⟩ h0
    · by_cases h1 : (n + 1) % 16 = 15
      · exact inv_last m c ⟨n + 1, h⟩ h0 h1 (inv c n (Nat.lt_of_succ_lt h))
      · exact inv_mid m c ⟨n + 1, h⟩ h0 h1 (inv c n (Nat.lt_of_succ_lt h))

/-- THE FINISHED BLOCK: after the last point of a contraction the output block at (p, q) is the whole
    main product, plus the completed low-rank product against row C of `B` times the scale literal,
    plus the bias of column C. -/
theorem last_out (c : Dev nD) (t : Fin cfg0.N) (h1 : t.val % 16 = 15) (p : Fin 2048) (q : Fin 1024) (R : Fin 8192) (C : Fin 4096)
    (hR : R.val = t.val / 64 * 2048 + p.val) (hC : C.val = t.val / 16 % 4 * 1024 + q.val) :
    (outsAt0 m c t.val t.isLt).1 (ix2 p q) = entry2d m c R C := by
  unfold entry2d
  have h0 : ¬t.val % 16 = 0 := by omega
  have ih := inv m c (t.val - 1) (Nat.lt_of_le_of_lt (Nat.sub_le _ _) t.isLt)
  have e16 : t.val % 16 + 1 = 16 := by omega
  rw [at_last m c t h0 h1]
  show k0_pay6 (k0_pay5 (iblk m c 0 t) (iblk m c 2 t) (outsAt0 m c (t.val - 1) (Nat.lt_of_le_of_lt (Nat.sub_le _ _) t.isLt)).2) (iblk m c 3 t) (iblk m c 4 t)
    (k0_pay4 (iblk m c 0 t) (iblk m c 1 t) (outsAt0 m c (t.val - 1) (Nat.lt_of_le_of_lt (Nat.sub_le _ _) t.isLt)).1) (ix2 p q) = _
  refine (Payload.finish_apply _ (iblk m c 3 t) (iblk m c 4 t) _ p q).trans ?_
  rw [out_step m c t h0 ih p q R C hR hC, e16, partialSum_full, Blocks.blk_bias m c t q C hC]
  refine congrArg (fun z => _ + (z * _ + _)) (Finset.sum_congr rfl fun r _ => ?_)
  rw [scr_step m c t h0 ih p r R hR, e16, partialSum_full, Blocks.blk_b m c t q r C hC]

end Cert.KernelIdeal.Accum

end
-- ==== Proof.LibFlatten.lean ====
/-
  Merging the two leading axes of a rank-3 array, read at an index. A [a, b, c] array reshaped to [R, c] (R = a · b)
  keeps its row-major order, so row r = p · b + q of the flat array is the slab (p, q) of the original, column by
  column; and the reshape back reads the flat array at that row. General in the extents.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[R, c]` reads, at `(r, k)` with `r = p · b + q`, the operand at `(p, q, k)`. -/
theorem shapeCast_abc_Rc_apply {a b c R : ℕ} (X : (⟨3, ![a, b, c]⟩ : Shape).Idx → α)
    (h : (⟨3, ![a, b, c]⟩ : Shape).ShapeCasts ⟨2, ![R, c]⟩) (p : Fin a) (q : Fin b) (k : Fin c) (r : Fin R)
    (hr : r.val = p.val * b + q.val) : shapeCast ⟨2, ![R, c]⟩ X h (ix2 r k) = X (ix3 p q k) :=
  shapeCast_apply X h _ _ (by
    rw [Shape.rowMajor_val_three, Shape.rowMajor_val_two]
    show (p.val * b + q.val) * c + k.val = r.val * c + k.val
    rw [hr])

/-- A `[R, c]` array cast to `[a, b, c]` reads, at `(p, q, k)`, the operand at `(r, k)` with `r = p · b + q`. -/
theorem shapeCast_Rc_abc_apply {a b c R : ℕ} (Y : (⟨2, ![R, c]⟩ : Shape).Idx → α)
    (h : (⟨2, ![R, c]⟩ : Shape).ShapeCasts ⟨3, ![a, b, c]⟩) (p : Fin a) (q : Fin b) (k : Fin c) (r : Fin R)
    (hr : r.val = p.val * b + q.val) : shapeCast ⟨3, ![a, b, c]⟩ Y h (ix3 p q k) = Y (ix2 r k) :=
  shapeCast_apply Y h _ _ (by
    rw [Shape.rowMajor_val_two, Shape.rowMajor_val_three]
    show r.val * c + k.val = (p.val * b + q.val) * c + k.val
    rw [hr])

end Cert.LibFlatten
-- ==== Proof.Final.lean ====
/-
  From the finished blocks to the program's result.

  The output's block is written back once per contraction, after its last point, and what is written is
  the finished entry of row `2048·(t/64) + p` and column `1024·(t/16%4) + q`: block t of one
  two-dimensional array. The sixteen written blocks tile that array, so the array ends holding it, and
  the one host line after the region splits the 8192 rows back into 4 × 2048. Entry (b, s, o) is then
  the specification's: the flattened `x` at row `2048·b + s` is `x` at (b, s), the bias row at column o is
  the bias at o, and the three summands are added in the other order.
-/
import proofs.«135286_j20873541058571_2_alg».proof.Proof.Accum
import proofs.«135286_j20873541058571_2_alg».proof.Proof.LibFlatten
import Idealize.ShloMosaic.Lib.ValueLayout

set_option maxRecDepth 16384

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.KernelIdeal.Accum

variable (m : (ℓ : Loc nD τ sig) → Buf (Elt Ideal) ℓ) (ρ : Dev nD → PrngReg)

/-- The two-dimensional array the region leaves: every finished entry. -/
def out2d (c : Dev nD) : S8192x4096.Idx → EReal := fun i => entry2d m c (i 0) (i 1)

/-- Where entry (p, q) of block t sits in the array. -/
theorem emb_out (t : Fin cfg0.N) (p : Fin 2048) (q : Fin 1024) (R : Fin 8192) (C : Fin 4096)
    (hR : R.val = t.val / 64 * 2048 + p.val) (hC : C.val = t.val / 16 % 4 * 1024 + q.val) :
    ((cfg0.win 5).blk t).view.emb (ix2 p q) = ix2 R C := by
  obtain ⟨-, -, -, -, -, -, -, -, -, -, e0, e1⟩ := Blocks.idx_facts t
  funext a; apply Fin.ext
  match a with
  | ⟨0, _⟩ => show win0_5.index t (0 : Fin 2) * 2048 + 1 * p.val = R.val; rw [e0, hR]; omega
  | ⟨1, _⟩ => show win0_5.index t (1 : Fin 2) * 1024 + 1 * q.val = C.val; rw [e1, hC]; omega

/-- What a write-back writes is its block of `out2d`. -/
theorem flushed_eq (c : Dev nD) (t : Fin cfg0.N) (hf : (cfg0.win 5).flush t = true) :
    (dats m 0 c).flushed 5 t = ((cfg0.win 5).blk t).view.read (Elt Ideal) (out2d m c) := by
  have h15 : t.val % 16 = 15 := (flush0_5 t).mp hf
  have hN : t.val < 256 := lt_of_lt_of_eq t.isLt (show cfg0.N = 256 from N_0)
  show (cfg0.win 5).cut (grid0.coords t) ((dats m 0 c).after 5 t) = _
  rw [after0_5]
  have key : ∀ y : S2048x1024.Idx, (outsAt0 m c t.val t.isLt).1 y = out2d m c (((cfg0.win 5).blk t).view.emb y) := by
    intro y
    obtain ⟨p, q, rfl⟩ : ∃ (p : Fin 2048) (q : Fin 1024), y = ix2 p q := ⟨y 0, y 1, eq_ix2 y⟩
    have hp := p.isLt
    have hq := q.isLt
    rw [emb_out t p q ⟨t.val / 64 * 2048 + p.val, by omega⟩ ⟨t.val / 16 % 4 * 1024 + q.val, by omega⟩ rfl rfl]
    exact last_out m c t h15 p q _ _ rfl rfl
  exact funext key

/-- Every entry of the array lies in the block of the last point of its contraction. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 256 := N_0
  have ht : ((i 0).val / 2048 * 4 + (i 1).val / 1024) * 16 + 15 < cfg0.N := by rw [hN]; omega
  obtain ⟨-, -, -, -, -, -, -, -, -, -, e0, e1⟩ := Blocks.idx_facts ⟨_, ht⟩
  refine ⟨⟨_, ht⟩, (flush0_5 _).mpr (by show (((i 0).val / 2048 * 4 + (i 1).val / 1024) * 16 + 15) % 16 = 15; omega), ?_⟩
  show i ∈ ((View.whole main_v4).slice (win0_5.rect ⟨_, ht⟩)).set
  rw [View.set_slice_whole, Rect.mem_set_unit]
  intro a
  match a with
  | ⟨0, _⟩ =>
    show win0_5.index ⟨_, ht⟩ (0 : Fin 2) * 2048 ≤ (i 0).val ∧ (i 0).val < win0_5.index ⟨_, ht⟩ (0 : Fin 2) * 2048 + 2048
    rw [e0]
    show (((i 0).val / 2048 * 4 + (i 1).val / 1024) * 16 + 15) / 64 * 2048 ≤ (i 0).val ∧ (i 0).val < (((i 0).val / 2048 * 4 + (i 1).val / 1024) * 16 + 15) / 64 * 2048 + 2048
    omega
  | ⟨1, _⟩ =>
    show win0_5.index ⟨_, ht⟩ (1 : Fin 2) * 1024 ≤ (i 1).val ∧ (i 1).val < win0_5.index ⟨_, ht⟩ (1 : Fin 2) * 1024 + 1024
    rw [e1]
    show (((i 0).val / 2048 * 4 + (i 1).val / 1024) * 16 + 15) / 16 % 4 * 1024 ≤ (i 1).val ∧ (i 1).val < (((i 0).val / 2048 * 4 + (i 1).val / 1024) * 16 + 15) / 16 % 4 * 1024 + 1024
    omega

/-- So the region leaves `out2d` in its output array. -/
theorem final (c : Dev nD) : (dats m 0 c).arrAt 5 cfg0.N = out2d m c :=
  (dats m 0 c).arrAt_eq_of_cover 5 (out2d m c) (flushed_eq m c) (fun i => cover i)

/-- The host line after the region: the 8192 rows split back into 4 × 2048. -/
theorem tail_eq (c : Dev nD) :
    Pipeline.afterTail₀ cfgs (dats m) 0 (V0 m) [hostOps1] c main_v5
      = shapeCast S4x2048x4096 (out2d m c) shapeCasts_S8192x4096_S4x2048x4096 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = out2d m c := (Pipeline.withArrays_arr spec0 launch0.win.arr_inj c _ _ 5).trans (final m c)
  rw [e]
  rfl

/-- THE RUN, READ: every weakly fair execution ends with the result at the split array and the six
    arguments as launched. -/
theorem run : θ_run defs (onTc (τ := τ) (main (F := Ideal))) ⟨m, fun _ => 0, ρ⟩ fun r => ∀ c : Dev nD,
      r.2.mem ((c.tc : Thread nD τ).loc main_v5) = shapeCast S4x2048x4096 (out2d m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c))⟩) (run_main m ρ)

/-- The low-rank factor with each row scaled, as the host line before the region forms it. -/
abbrev scaledA (c : Dev nD) : FVec Ideal S16x4096 .f32 :=
  mulf (m ((c.tc : Thread nD τ).loc main_arg3) : FVec Ideal S16x4096 .f32)
    (broadcastInDim S16x4096 ![0, 1] bcast_S16x1_S16x4096_0_1 (m ((c.tc : Thread nD τ).loc main_arg5) : FVec Ideal S16x1 .f32))

/-- THE KERNEL'S RESULT IS THE SPECIFICATION, with the scaled factor as the host line before the region
    formed it. -/
theorem result_eq (c : Dev nD) :
    shapeCast S4x2048x4096 (out2d m c) shapeCasts_S8192x4096_S4x2048x4096
      = Cert.Spec.result (m ((c.tc : Thread nD τ).loc main_arg0)) (m ((c.tc : Thread nD τ).loc main_arg1)) (m ((c.tc : Thread nD τ).loc main_arg2))
          (scaledA m c)
          (m ((c.tc : Thread nD τ).loc main_arg4)) (Ideal.ofBits .f32 0x3F800000#32) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  have hX : ∀ k : Fin 4096, aX m c (ix2 (⟨b.val * 2048 + s.val, by omega⟩ : Fin 8192) k) = m ((c.tc : Thread nD τ).loc main_arg0) (ix3 b s k) := fun k => by
    show (V m c main_v0 : S8192x4096.Idx → EReal) _ = _
    rw [Blocks.V_x]
    exact Cert.LibFlatten.shapeCast_abc_Rc_apply _ _ b s k _ rfl
  have hBias : aBias m c (ix2 (0 : Fin 1) o) = m ((c.tc : Thread nD τ).loc main_arg2) (ix1 o) := by
    show (V m c main_v3 : S1x4096.Idx → EReal) _ = _
    rw [Blocks.V_bias]
    exact shapeCast_a_1a_apply _ _ 0 o
  have hW : aW m c = m ((c.tc : Thread nD τ).loc main_arg1) := V_main_arg1 m c
  have hB : aB m c = m ((c.tc : Thread nD τ).loc main_arg4) := V_main_arg4 m c
  have hA : aA m c = scaledA m c :=
    Blocks.V_a m c
  rw [Cert.LibFlatten.shapeCast_Rc_abc_apply (out2d m c) _ b s o ⟨b.val * 2048 + s.val, by omega⟩ rfl]
  show entry2d m c ⟨b.val * 2048 + s.val, _⟩ o = Cert.Spec.entry _ _ _ _ _ _ b s o
  unfold entry2d Cert.Spec.entry mainTerm lowTerm
  simp only [hX, hBias, hW, hB, hA]
  exact Cert.Spec.regroup _ _ _

end Cert.KernelIdeal.Final

end
-- ==== Proof.RefSide.lean ====
/-
  The reference program's result, entry by entry, at the exact instance.

  The reference forms the main product of `x` with `W` transposed and adds the bias; scales the rows of `A` by
  `c`; contracts `x` with the scaled factor to sixteen numbers per row and those with `B`; multiplies by the
  scale literal; and adds the two. Read one operation at a time this is the specification's entry.
-/
import proofs.«135286_j20873541058571_2_alg».proof.Defs
import proofs.«135286_j20873541058571_2_alg».proof.Proof.Gen.ReferenceIdeal.Read
import proofs.«135286_j20873541058571_2_alg».proof.Proof.Spec

noncomputable section

open scoped BigOperators

namespace Cert.RefSide

open Cert.ReferenceIdeal Cert.ReferenceIdeal.Read Idealize.ShloMosaic Idealize.ShloMosaic.ValueIdx

/-- The reference's last stage is the specification, with the scaled factor kept as the reference forms it. -/
theorem ref_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S16x4096, .f32⟩ : BufTy).Contents (Elt Ideal))
    (x4 : (⟨S4096x16, .f32⟩ : BufTy).Contents (Elt Ideal)) (x5 : (⟨S16x1, .f32⟩ : BufTy).Contents (Elt Ideal)) :
    val_main_v10 (F := Ideal) x0 x1 x2 x3 x4 x5
      = Cert.Spec.result x0 x1 x2 (val_main_v5 (F := Ideal) x3 x5) x4 (Ideal.ofBits .f32 0x3F800000#32) := by
  funext i
  obtain ⟨b, s, o, rfl⟩ : ∃ (b : Fin 4) (s : Fin 2048) (o : Fin 4096), i = ix3 b s o := ⟨i 0, i 1, i 2, eq_ix3 i⟩
  have e0l : ∀ k : Fin 4096, lidx_main_v0 (ix3 b s o) k = ix3 b s k := fun k => funext fun a => by
    match a with | ⟨0, _⟩ => rfl | ⟨1, _⟩ => rfl | ⟨2, _⟩ => rfl
  have e0r : ∀ k : Fin 4096, ridx_main_v0 (ix3 b s o) k = ix2 o k := fun k => funext fun a => by
    match a with | ⟨0, _⟩ => rfl | ⟨1, _⟩ => rfl
  have e1 : idx_main_v1 (idx_main_v2 (ix3 b s o)) = ix1 o := funext fun a => by
    match a with | ⟨0, _⟩ => rfl
  have e7l : ∀ r : Fin 16, lidx_main_v7 (ix3 b s o) r = ix3 b s r := fun r => funext fun a => by
    match a with | ⟨0, _⟩ => rfl | ⟨1, _⟩ => rfl | ⟨2, _⟩ => rfl
  have e7r : ∀ r : Fin 16, ridx_main_v7 (ix3 b s o) r = ix2 o r := fun r => funext fun a => by
    match a with | ⟨0, _⟩ => rfl | ⟨1, _⟩ => rfl
  have e6l : ∀ (r : Fin 16) (k : Fin 4096), lidx_main_v6 (ix3 b s r) k = ix3 b s k := fun r k => funext fun a => by
    match a with | ⟨0, _⟩ => rfl | ⟨1, _⟩ => rfl | ⟨2, _⟩ => rfl
  have e6r : ∀ (r : Fin 16) (k : Fin 4096), ridx_main_v6 (ix3 b s r) k = ix2 r k := fun r k => funext fun a => by
    match a with | ⟨0, _⟩ => rfl | ⟨1, _⟩ => rfl
  rw [val_main_v10_apply, val_main_v3_apply, val_main_v9_apply, val_main_v0_apply, val_main_v2_apply,
    val_main_v1_apply, val_main_v7_apply, val_main_v8_apply, val_main_cst_apply]
  simp only [e0l, e0r, e1, e7l, e7r, val_main_v6_apply, e6l, e6r, Ideal.addf_def, Ideal.mulf_def, Ideal.ofBits_def]
  rfl

end Cert.RefSide

end
-- ==== Proof.lean ====
/-
  A linear layer with a rank-16 correction, y = x·Wᵀ + b + ((x·(A∘c)ᵀ)·Bᵀ)·(16/16), computed by a tiled
  accelerator kernel and by a plain reference; the claim is that at exact arithmetic on the extended
  reals the two give the same array.

  The kernel flattens `x` to 8192 rows and walks a 4 × 4 × 16 grid: a row block of 2048 rows, a column block
  of 1024 columns, and sixteen runs of 256 contraction positions. Along the sixteen runs it accumulates the
  main product in the output block and `x` against the scaled factor in a 2048 × 16 scratch block; after the
  last run it adds to the output block the scratch block against the block of `B`, times the scale literal,
  plus the bias. The proof reads what each of the three kinds of grid point leaves (Pieces), reads the
  body's arithmetic at an entry (Payload, over the general product lemma LibTransposedRhsDot), places
  each block in its array (Blocks), shows by induction on the grid point that the running blocks hold
  the first runs of their contractions (Accum), and assembles the written-back blocks into the result
  array and through the final reshape (Final, over LibFlatten). The reference is read one operation at a
  time (RefSide). Both sides are the specification of Spec: sixteen runs of 256 are the contraction over
  4096, and the main product, the correction and the bias are added in two different orders. These are
  laws of a commutative monoid, so the finiteness of the inputs is never used; the idealization
  rewrote nothing, so that conjunct is trivial; the kernel's two frames are the generated ones and the
  reference's frame is its run with the result dropped.
-/
import proofs.«135286_j20873541058571_2_alg».proof.Defs
import proofs.«135286_j20873541058571_2_alg».proof.Proof.Gen.Kernel
import proofs.«135286_j20873541058571_2_alg».proof.Proof.Gen.Kernel.Frame
import proofs.«135286_j20873541058571_2_alg».proof.Proof.Gen.KernelIdeal
import proofs.«135286_j20873541058571_2_alg».proof.Proof.Gen.KernelIdeal.Frame
import proofs.«135286_j20873541058571_2_alg».proof.Proof.Gen.ReferenceIdeal
import proofs.«135286_j20873541058571_2_alg».proof.Proof.Gen.ReferenceIdeal.Run
import proofs.«135286_j20873541058571_2_alg».proof.Proof.Gen.ReferenceIdeal.Read
import proofs.«135286_j20873541058571_2_alg».proof.Proof.Gen.Pre_finite_inputs
import proofs.«135286_j20873541058571_2_alg».proof.Proof.Final
import proofs.«135286_j20873541058571_2_alg».proof.Proof.RefSide
import Idealize.ShloMosaic.Adequacy
import Idealize.ShloMosaic.Init

noncomputable section

namespace Cert.Proof

open Idealize.ShloMosaic Idealize.SL.Sem

/-- The kernel as printed runs, and leaves its arguments alone. -/
theorem frame_k : Cert.frame_Kernel := fun m ρ _ => Cert.Kernel.Gen.frame m ρ

/-- So does its reading at exact arithmetic. -/
theorem frame_ki : Cert.frame_KernelIdeal := fun m ρ _ => Cert.KernelIdeal.Gen.frame m ρ

/-- The reference runs: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was read at exact arithmetic. -/
theorem preserves : Cert.preserves_Kernel_KernelIdeal := trivial

/-- From arguments that agree, the kernel ends at the split array of finished entries and the reference at
    its last stage; both are the specification's result. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefSide.ref_eq, (hagree c).1, (hagree c).2.1, (hagree c).2.2.1,
    (hagree c).2.2.2.1, (hagree c).2.2.2.2.1, (hagree c).2.2.2.2.2]
  exact (Cert.KernelIdeal.Final.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
